-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x128 : Shape := ⟨2, ![8192, 128]⟩
abbrev S128x64 : Shape := ⟨2, ![128, 64]⟩
abbrev S64x16 : Shape := ⟨2, ![64, 16]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S128x64 : S_.BroadcastsInDim S128x64 (![] : Fin 0 → Fin S128x64.rank)
  reducesTo_S128x64_S_d0_1 : S128x64.ReducesTo [0, 1] S_
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  main_v18

def fn {F : FTy → Type} [FloatOps F] (main_arg0 : FVec F S8192x8192 .f32) (main_arg1 : FVec F S8192x128 .f32) (main_arg2 : FVec F S128x64 .f32) (main_arg3 : FVec F S64x16 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x16 .f32 := Host.absf main_arg3
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_v13 main_v16
-- ==== Kernel.lean ====
abbrev S8192x8192 : Shape := ⟨2, ![8192, 8192]⟩
abbrev S8192x128 : Shape := ⟨2, ![8192, 128]⟩
abbrev S128x64 : Shape := ⟨2, ![128, 64]⟩
abbrev S64x16 : Shape := ⟨2, ![64, 16]⟩
abbrev S_ : Shape := ⟨0, ![]⟩
abbrev S8192x64 : Shape := ⟨2, ![8192, 64]⟩
abbrev S256x8192 : Shape := ⟨2, ![256, 8192]⟩
abbrev S256x64 : Shape := ⟨2, ![256, 64]⟩
abbrev S8192x16 : Shape := ⟨2, ![8192, 16]⟩
abbrev S256x16 : Shape := ⟨2, ![256, 16]⟩

abbrev nBuf : Space → Nat
  | .hbm => 96
  | .vmem => 10
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S128x64, .f32⟩
  | .hbm, ⟨3, _⟩ => ⟨S64x16, .f32⟩
  | .hbm, ⟨4, _⟩ => ⟨S8192x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .i1⟩
  | .hbm, ⟨11, _⟩ => ⟨S_, .f32⟩
  | .hbm, ⟨12, _⟩ => ⟨S_, .f32⟩
  | .hbm, ⟨13, _⟩ => ⟨S8192x128, .f32⟩
  | .hbm, ⟨14, _⟩ => ⟨S8192x128, .f32⟩
  | .hbm, ⟨15, _⟩ => ⟨S8192x128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x128, .f32⟩
  | .hbm, ⟨20, _⟩ => ⟨S8192x128, .f32⟩
  | .hbm, ⟨21, _⟩ => ⟨S_, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S128x64, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S128x64, .f32⟩
  | .hbm, ⟨36, _⟩ => ⟨S128x64, .f32⟩
  | .hbm, ⟨37, _⟩ => ⟨S128x64, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S128x64, .f32⟩
  | .hbm, ⟨42, _⟩ => ⟨S128x64, .f32⟩
  | .hbm, ⟨43, _⟩ => ⟨S_, .f32⟩
  | .hbm, ⟨44, _⟩ => ⟨S128x64, .f32⟩
  | .hbm, ⟨45, _⟩ => ⟨S128x64, .f32⟩
  | .hbm, ⟨46, _⟩ => ⟨S128x64, .f32⟩
  | .hbm, ⟨47, _⟩ => ⟨S128x64, .f32⟩
  | .hbm, ⟨48, _⟩ => ⟨S64x16, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .i1⟩
  | .hbm, ⟨55, _⟩ => ⟨S_, .f32⟩
  | .hbm, ⟨56, _⟩ => ⟨S_, .f32⟩
  | .hbm, ⟨57, _⟩ => ⟨S64x16, .f32⟩
  | .hbm, ⟨58, _⟩ => ⟨S64x16, .f32⟩
  | .hbm, ⟨59, _⟩ => ⟨S64x16, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S64x16, .f32⟩
  | .hbm, ⟨64, _⟩ => ⟨S64x16, .f32⟩
  | .hbm, ⟨65, _⟩ => ⟨S_, .f32⟩
  | .hbm, ⟨66, _⟩ => ⟨S64x16, .f32⟩
  | .hbm, ⟨67, _⟩ => ⟨S64x16, .f32⟩
  | .hbm, ⟨68, _⟩ => ⟨S64x16, .f32⟩
  | .hbm, ⟨69, _⟩ => ⟨S64x16, .f32⟩
  | .hbm, ⟨70, _⟩ => ⟨S8192x64, .f32⟩
  | .hbm, ⟨71, _⟩ => ⟨S8192x64, .f32⟩
  | .hbm, ⟨72, _⟩ => ⟨S8192x64, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .i1⟩
  | .hbm, ⟨79, _⟩ => ⟨S_, .f32⟩
  | .hbm, ⟨80, _⟩ => ⟨S_, .f32⟩
  | .hbm, ⟨81, _⟩ => ⟨S8192x64, .f32⟩
  | .hbm, ⟨82, _⟩ => ⟨S8192x64, .f32⟩
  | .hbm, ⟨83, _⟩ => ⟨S8192x64, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S8192x64, .f32⟩
  | .hbm, ⟨88, _⟩ => ⟨S8192x64, .f32⟩
  | .hbm, ⟨89, _⟩ => ⟨S_, .f32⟩
  | .hbm, ⟨90, _⟩ => ⟨S8192x64, .f32⟩
  | .hbm, ⟨91, _⟩ => ⟨S8192x64, .f32⟩
  | .hbm, ⟨92, _⟩ => ⟨S8192x64, .f32⟩
  | .hbm, ⟨93, _⟩ => ⟨S8192x64, .f32⟩
  | .hbm, ⟨94, _⟩ => ⟨S8192x16, .f32⟩
  | .hbm, ⟨95, _⟩ => ⟨S8192x16, .f32⟩
  | .local _ .vmem, ⟨0, _⟩ => ⟨S256x8192, .f32⟩
  | .local _ .vmem, ⟨1, _⟩ => ⟨S256x8192, .f32⟩
  | .local _ .vmem, ⟨2, _⟩ => ⟨S8192x64, .f32⟩
  | .local _ .vmem, ⟨3, _⟩ => ⟨S256x64, .f32⟩
  | .local _ .vmem, ⟨4, _⟩ => ⟨S256x64, .f32⟩
  | .local _ .vmem, ⟨5, _⟩ => ⟨S256x8192, .f32⟩
  | .local _ .vmem, ⟨6, _⟩ => ⟨S256x8192, .f32⟩
  | .local _ .vmem, ⟨7, _⟩ => ⟨S8192x16, .f32⟩
  | .local _ .vmem, ⟨8, _⟩ => ⟨S256x16, .f32⟩
  | .local _ .vmem, ⟨9, _⟩ => ⟨S256x16, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_3 : Ref sig .tc := ⟨.hbm, 16, rfl⟩
abbrev main_cst_4 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_5 : Ref sig .tc := ⟨.hbm, 27, rfl⟩
abbrev main_v12 : Ref sig .tc := ⟨.hbm, 28, rfl⟩
abbrev main_cst_6 : Ref sig .tc := ⟨.hbm, 29, rfl⟩
abbrev main_v13 : Ref sig .tc := ⟨.hbm, 30, rfl⟩
abbrev main_cst_7 : Ref sig .tc := ⟨.hbm, 31, rfl⟩
abbrev main_v14 : Ref sig .tc := ⟨.hbm, 32, rfl⟩
abbrev main_cst_8 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_9 : Ref sig .tc := ⟨.hbm, 38, rfl⟩
abbrev main_cst_10 : Ref sig .tc := ⟨.hbm, 39, rfl⟩
abbrev main_call5_v0 : Ref sig .tc := ⟨.hbm, 40, rfl⟩
abbrev main_call5_v1 : Ref sig .tc := ⟨.hbm, 41, rfl⟩
abbrev main_call5_v2 : Ref sig .tc := ⟨.hbm, 42, rfl⟩
abbrev main_call5_v3 : Ref sig .tc := ⟨.hbm, 43, rfl⟩
abbrev main_call5_v4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst_11 : Ref sig .tc := ⟨.hbm, 49, rfl⟩
abbrev main_v23 : Ref sig .tc := ⟨.hbm, 50, rfl⟩
abbrev main_cst_12 : Ref sig .tc := ⟨.hbm, 51, rfl⟩
abbrev main_v24 : Ref sig .tc := ⟨.hbm, 52, rfl⟩
abbrev main_cst_13 : Ref sig .tc := ⟨.hbm, 53, rfl⟩
abbrev main_v25 : Ref sig .tc := ⟨.hbm, 54, rfl⟩
abbrev main_cst_14 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_15 : Ref sig .tc := ⟨.hbm, 60, rfl⟩
abbrev main_cst_16 : Ref sig .tc := ⟨.hbm, 61, rfl⟩
abbrev main_call8_v0 : Ref sig .tc := ⟨.hbm, 62, rfl⟩
abbrev main_call8_v1 : Ref sig .tc := ⟨.hbm, 63, rfl⟩
abbrev main_call8_v2 : Ref sig .tc := ⟨.hbm, 64, rfl⟩
abbrev main_call8_v3 : Ref sig .tc := ⟨.hbm, 65, rfl⟩
abbrev main_call8_v4 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_17 : Ref sig .tc := ⟨.hbm, 73, rfl⟩
abbrev main_v36 : Ref sig .tc := ⟨.hbm, 74, rfl⟩
abbrev main_cst_18 : Ref sig .tc := ⟨.hbm, 75, rfl⟩
abbrev main_v37 : Ref sig .tc := ⟨.hbm, 76, rfl⟩
abbrev main_cst_19 : Ref sig .tc := ⟨.hbm, 77, rfl⟩
abbrev main_v38 : Ref sig .tc := ⟨.hbm, 78, rfl⟩
abbrev main_cst_20 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_21 : Ref sig .tc := ⟨.hbm, 84, rfl⟩
abbrev main_cst_22 : Ref sig .tc := ⟨.hbm, 85, rfl⟩
abbrev main_call11_v0 : Ref sig .tc := ⟨.hbm, 86, rfl⟩
abbrev main_call11_v1 : Ref sig .tc := ⟨.hbm, 87, rfl⟩
abbrev main_call11_v2 : Ref sig .tc := ⟨.hbm, 88, rfl⟩
abbrev main_call11_v3 : Ref sig .tc := ⟨.hbm, 89, rfl⟩
abbrev main_call11_v4 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  reducesTo_S8192x128_S_d0_1 : S8192x128.ReducesTo [0, 1] S_
  h_S_ : 0 < S_.numel
  bcast_S_S8192x128 : S_.BroadcastsInDim S8192x128 (![] : Fin 0 → Fin S8192x128.rank)
  reducesTo_S128x64_S_d0_1 : S128x64.ReducesTo [0, 1] S_
  bcast_S_S128x64 : S_.BroadcastsInDim S128x64 (![] : Fin 0 → Fin S128x64.rank)
  reducesTo_S64x16_S_d0_1 : S64x16.ReducesTo [0, 1] S_
  bcast_S_S64x16 : S_.BroadcastsInDim S64x16 (![] : Fin 0 → Fin S64x16.rank)
  inb_S256x8192_S256x8192_0_0 : ∀ a, (![0, 0] : Fin 2 → Nat) a + S256x8192.size a ≤ S256x8192.size a
  h_S256x8192 : 0 < S256x8192.numel
  natLt_1_32 : 1 < 32
  bitsLt_bf16_f32 : FTy.bits .bf16 < FTy.bits .f32
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S256x64_S256x64_0_0 : ∀ a, (![0, 0] : Fin 2 → Nat) a + S256x64.size a ≤ S256x64.size a
  h_S256x64 : 0 < S256x64.numel
  reducesTo_S8192x64_S_d0_1 : S8192x64.ReducesTo [0, 1] S_
  bcast_S_S8192x64 : S_.BroadcastsInDim S8192x64 (![] : Fin 0 → Fin S8192x64.rank)
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  inb_S256x16_S256x16_0_0 : ∀ a, (![0, 0] : Fin 2 → Nat) a + S256x16.size a ≤ S256x16.size a
  h_S256x16 : 0 < S256x16.numel
  dot_S8192x128_S128x64_S8192x64_1_0_0_1_n_n_wf : DotDims.WF S8192x128 S128x64 S8192x64 [1] [0] [0] [1] [] []
  dot_S256x8192_S8192x64_S256x64_1_0_0_1_n_n_wf : DotDims.WF S256x8192 S8192x64 S256x64 [1] [0] [0] [1] [] []
  dot_S8192x64_S64x16_S8192x16_1_0_0_1_n_n_wf : DotDims.WF S8192x64 S64x16 S8192x16 [1] [0] [0] [1] [] []
  dot_S256x8192_S8192x16_S256x16_1_0_0_1_n_n_wf : DotDims.WF S256x8192 S8192x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .f32 = 32 ∨ (Rect.block (s := S8192x64) S8192x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64.size a ≤ S8192x64.size a
  hwx0_2 : ∀ i : grid0.Coords, EltTy.bits .f32 = 32 ∨ (Rect.block (s := S8192x64) S256x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x16.size a ≤ S8192x16.size a
  hwx1_1 : ∀ i : grid1.Coords, EltTy.bits .f32 = 32 ∨ (Rect.block (s := S8192x16) S8192x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x16.size a ≤ S8192x16.size a
  hwx1_2 : ∀ i : grid1.Coords, EltTy.bits .f32 = 32 ∨ (Rect.block (s := S8192x16) S256x16.size (cc1_transform_2 i) (hinb1_2 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S256x8192_S8192x64_S256x64_1_0_0_1_n_n : DotDims S256x8192 S8192x64 S256x64 where
  lhsContracting := [1]
  rhsContracting := [0]
  lhsNonContracting := [0]
  rhsNonContracting := [1]
  lhsBatch := []
  rhsBatch := []
  wf := dot_S256x8192_S8192x64_S256x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def dot_S256x8192_S8192x16_S256x16_1_0_0_1_n_n : DotDims S256x8192 S8192x16 S256x16 where
  lhsContracting := [1]
  rhsContracting := [0]
  lhsNonContracting := [0]
  rhsNonContracting := [1]
  lhsBatch := []
  rhsBatch := []
  wf := dot_S256x8192_S8192x16_S256x16_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v33) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S256x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S8192x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S256x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S8192x128 : Shape := ⟨2, ![8192, 128]⟩
abbrev S128x64 : Shape := ⟨2, ![128, 64]⟩
abbrev S64x16 : Shape := ⟨2, ![64, 16]⟩
abbrev S_ : Shape := ⟨0, ![]⟩
abbrev S8192x64 : Shape := ⟨2, ![8192, 64]⟩
abbrev S8192x16 : Shape := ⟨2, ![8192, 16]⟩

abbrev nBuf : Space → Nat
  | .hbm => 100
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x128, .f32⟩
  | .hbm, ⟨2, _⟩ => ⟨S128x64, .f32⟩
  | .hbm, ⟨3, _⟩ => ⟨S64x16, .f32⟩
  | .hbm, ⟨4, _⟩ => ⟨S_, .f32⟩
  | .hbm, ⟨5, _⟩ => ⟨S8192x8192, .f32⟩
  | .hbm, ⟨6, _⟩ => ⟨S8192x8192, .i1⟩
  | .hbm, ⟨7, _⟩ => ⟨S8192x8192, .f32⟩
  | .hbm, ⟨8, _⟩ => ⟨S8192x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i1⟩
  | .hbm, ⟨15, _⟩ => ⟨S_, .f32⟩
  | .hbm, ⟨16, _⟩ => ⟨S_, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192x128, .f32⟩
  | .hbm, ⟨24, _⟩ => ⟨S8192x128, .f32⟩
  | .hbm, ⟨25, _⟩ => ⟨S_, .f32⟩
  | .hbm, ⟨26, _⟩ => ⟨S8192x128, .f32⟩
  | .hbm, ⟨27, _⟩ => ⟨S8192x128, .f32⟩
  | .hbm, ⟨28, _⟩ => ⟨S8192x128, .f32⟩
  | .hbm, ⟨29, _⟩ => ⟨S8192x128, .f32⟩
  | .hbm, ⟨30, _⟩ => ⟨S128x64, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .i1⟩
  | .hbm, ⟨37, _⟩ => ⟨S_, .f32⟩
  | .hbm, ⟨38, _⟩ => ⟨S_, .f32⟩
  | .hbm, ⟨39, _⟩ => ⟨S128x64, .f32⟩
  | .hbm, ⟨40, _⟩ => ⟨S128x64, .f32⟩
  | .hbm, ⟨41, _⟩ => ⟨S128x64, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S128x64, .f32⟩
  | .hbm, ⟨46, _⟩ => ⟨S128x64, .f32⟩
  | .hbm, ⟨47, _⟩ => ⟨S_, .f32⟩
  | .hbm, ⟨48, _⟩ => ⟨S128x64, .f32⟩
  | .hbm, ⟨49, _⟩ => ⟨S128x64, .f32⟩
  | .hbm, ⟨50, _⟩ => ⟨S128x64, .f32⟩
  | .hbm, ⟨51, _⟩ => ⟨S128x64, .f32⟩
  | .hbm, ⟨52, _⟩ => ⟨S64x16, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .i1⟩
  | .hbm, ⟨59, _⟩ => ⟨S_, .f32⟩
  | .hbm, ⟨60, _⟩ => ⟨S_, .f32⟩
  | .hbm, ⟨61, _⟩ => ⟨S64x16, .f32⟩
  | .hbm, ⟨62, _⟩ => ⟨S64x16, .f32⟩
  | .hbm, ⟨63, _⟩ => ⟨S64x16, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S64x16, .f32⟩
  | .hbm, ⟨68, _⟩ => ⟨S64x16, .f32⟩
  | .hbm, ⟨69, _⟩ => ⟨S_, .f32⟩
  | .hbm, ⟨70, _⟩ => ⟨S64x16, .f32⟩
  | .hbm, ⟨71, _⟩ => ⟨S64x16, .f32⟩
  | .hbm, ⟨72, _⟩ => ⟨S64x16, .f32⟩
  | .hbm, ⟨73, _⟩ => ⟨S64x16, .f32⟩
  | .hbm, ⟨74, _⟩ => ⟨S8192x64, .f32⟩
  | .hbm, ⟨75, _⟩ => ⟨S8192x64, .f32⟩
  | .hbm, ⟨76, _⟩ => ⟨S8192x64, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .i1⟩
  | .hbm, ⟨83, _⟩ => ⟨S_, .f32⟩
  | .hbm, ⟨84, _⟩ => ⟨S_, .f32⟩
  | .hbm, ⟨85, _⟩ => ⟨S8192x64, .f32⟩
  | .hbm, ⟨86, _⟩ => ⟨S8192x64, .f32⟩
  | .hbm, ⟨87, _⟩ => ⟨S8192x64, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S8192x64, .f32⟩
  | .hbm, ⟨92, _⟩ => ⟨S8192x64, .f32⟩
  | .hbm, ⟨93, _⟩ => ⟨S_, .f32⟩
  | .hbm, ⟨94, _⟩ => ⟨S8192x64, .f32⟩
  | .hbm, ⟨95, _⟩ => ⟨S8192x64, .f32⟩
  | .hbm, ⟨96, _⟩ => ⟨S8192x64, .f32⟩
  | .hbm, ⟨97, _⟩ => ⟨S8192x64, .f32⟩
  | .hbm, ⟨98, _⟩ => ⟨S8192x16, .f32⟩
  | .hbm, ⟨99, _⟩ => ⟨S8192x16, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_cst_5 : Ref sig .tc := ⟨.hbm, 21, rfl⟩
abbrev main_call2_v0 : Ref sig .tc := ⟨.hbm, 22, rfl⟩
abbrev main_call2_v1 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_cst_7 : Ref sig .tc := ⟨.hbm, 33, rfl⟩
abbrev main_v16 : Ref sig .tc := ⟨.hbm, 34, rfl⟩
abbrev main_cst_8 : Ref sig .tc := ⟨.hbm, 35, rfl⟩
abbrev main_v17 : Ref sig .tc := ⟨.hbm, 36, rfl⟩
abbrev main_cst_9 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_10 : Ref sig .tc := ⟨.hbm, 42, rfl⟩
abbrev main_cst_11 : Ref sig .tc := ⟨.hbm, 43, rfl⟩
abbrev main_call5_v0 : Ref sig .tc := ⟨.hbm, 44, rfl⟩
abbrev main_call5_v1 : Ref sig .tc := ⟨.hbm, 45, rfl⟩
abbrev main_call5_v2 : Ref sig .tc := ⟨.hbm, 46, rfl⟩
abbrev main_call5_v3 : Ref sig .tc := ⟨.hbm, 47, rfl⟩
abbrev main_call5_v4 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_cst_12 : Ref sig .tc := ⟨.hbm, 53, rfl⟩
abbrev main_v26 : Ref sig .tc := ⟨.hbm, 54, rfl⟩
abbrev main_cst_13 : Ref sig .tc := ⟨.hbm, 55, rfl⟩
abbrev main_v27 : Ref sig .tc := ⟨.hbm, 56, rfl⟩
abbrev main_cst_14 : Ref sig .tc := ⟨.hbm, 57, rfl⟩
abbrev main_v28 : Ref sig .tc := ⟨.hbm, 58, rfl⟩
abbrev main_cst_15 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_16 : Ref sig .tc := ⟨.hbm, 64, rfl⟩
abbrev main_cst_17 : Ref sig .tc := ⟨.hbm, 65, rfl⟩
abbrev main_call8_v0 : Ref sig .tc := ⟨.hbm, 66, rfl⟩
abbrev main_call8_v1 : Ref sig .tc := ⟨.hbm, 67, rfl⟩
abbrev main_call8_v2 : Ref sig .tc := ⟨.hbm, 68, rfl⟩
abbrev main_call8_v3 : Ref sig .tc := ⟨.hbm, 69, rfl⟩
abbrev main_call8_v4 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_cst_18 : Ref sig .tc := ⟨.hbm, 77, rfl⟩
abbrev main_v39 : Ref sig .tc := ⟨.hbm, 78, rfl⟩
abbrev main_cst_19 : Ref sig .tc := ⟨.hbm, 79, rfl⟩
abbrev main_v40 : Ref sig .tc := ⟨.hbm, 80, rfl⟩
abbrev main_cst_20 : Ref sig .tc := ⟨.hbm, 81, rfl⟩
abbrev main_v41 : Ref sig .tc := ⟨.hbm, 82, rfl⟩
abbrev main_cst_21 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_22 : Ref sig .tc := ⟨.hbm, 88, rfl⟩
abbrev main_cst_23 : Ref sig .tc := ⟨.hbm, 89, rfl⟩
abbrev main_call11_v0 : Ref sig .tc := ⟨.hbm, 90, rfl⟩
abbrev main_call11_v1 : Ref sig .tc := ⟨.hbm, 91, rfl⟩
abbrev main_call11_v2 : Ref sig .tc := ⟨.hbm, 92, rfl⟩
abbrev main_call11_v3 : Ref sig .tc := ⟨.hbm, 93, rfl⟩
abbrev main_call11_v4 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x128_S_d0_1 : S8192x128.ReducesTo [0, 1] S_
  h_S_ : 0 < S_.numel
  bcast_S_S8192x128 : S_.BroadcastsInDim S8192x128 (![] : Fin 0 → Fin S8192x128.rank)
  reducesTo_S128x64_S_d0_1 : S128x64.ReducesTo [0, 1] S_
  bcast_S_S128x64 : S_.BroadcastsInDim S128x64 (![] : Fin 0 → Fin S128x64.rank)
  reducesTo_S64x16_S_d0_1 : S64x16.ReducesTo [0, 1] S_
  bcast_S_S64x16 : S_.BroadcastsInDim S64x16 (![] : Fin 0 → Fin S64x16.rank)
  reducesTo_S8192x64_S_d0_1 : S8192x64.ReducesTo [0, 1] S_
  bcast_S_S8192x64 : S_.BroadcastsInDim S8192x64 (![] : Fin 0 → Fin S8192x64.rank)
  dot_S8192x128_S128x64_S8192x64_1_0_0_1_n_n_wf : DotDims.WF S8192x128 S128x64 S8192x64 [1] [0] [0] [1] [] []
  dot_S8192x8192_S8192x64_S8192x64_1_0_0_1_n_n_wf : DotDims.WF S8192x8192 S8192x64 S8192x64 [1] [0] [0] [1] [] []
  dot_S8192x64_S64x16_S8192x16_1_0_0_1_n_n_wf : DotDims.WF S8192x64 S64x16 S8192x16 [1] [0] [0] [1] [] []
  dot_S8192x8192_S8192x16_S8192x16_1_0_0_1_n_n_wf : DotDims.WF S8192x8192 S8192x16 S8192x16 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def dot_S8192x8192_S8192x16_S8192x16_1_0_0_1_n_n : DotDims S8192x8192 S8192x16 S8192x16 where
  lhsContracting := [1]
  rhsContracting := [0]
  lhsNonContracting := [0]
  rhsNonContracting := [1]
  lhsBatch := []
  rhsBatch := []
  wf := dot_S8192x8192_S8192x16_S8192x16_1_0_0_1_n_n_wf

class Facts : Prop extends Facts₀ where

variable [Facts]
-- ==== Proof.LibBlockRead.lean ====
/-
  Vector operations of a rank-two block read at an index written by its two coordinates, at any extents.

  * a column `[a, 1]` broadcast along the rows to `[a, b]` reads, at `(p, c)`, the column at `p`;
  * a vector `[a]` cast to a column `[a, 1]` reads, at `(p, 0)`, the vector at `p`;
  * the sum of a `[a, b]` block along its second axis is, at row `p`, the sum over `k` of the block at `(p, k)`;
  * a matrix product `[m, k] · [k, n]` into a zero accumulator is, at `(p, c)`, the sum over `t` of the left factor
    at `(p, t)` times the right factor at `(t, c)` — given where the dimension numbers send an output index and a
    contraction index (four coordinate facts, each one line at a literal record).
-/
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.Sage.BlockRead

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A vector `[a]` cast to a column `[a, 1]` reads, at `(p, u)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- The sum of a `[a, b]` block along its second axis, at row `p`: the sum over `k` of the block at `(p, k)`. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A product of a `[m, k]` block with a `[k, n]` block into a zero accumulator, at `(p, c)`. -/
theorem matmul_apply2 {m k n : ℕ} {φ₁ φ₂ : FTy} (D : DotDims ⟨2, ![m, k]⟩ ⟨2, ![k, n]⟩ ⟨2, ![m, n]⟩)
    (prec : Option ContractPrecision) (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (lhs : FVec Ideal ⟨2, ![m, k]⟩ φ₁) (rhs : FVec Ideal ⟨2, ![k, n]⟩ φ₂) (p : Fin m) (c : Fin n) :
    FloatOps.matmul D prec lhs rhs (constant ⟨2, ![m, n]⟩ .f32 0x00000000#32) (ix2 p c)
      = ∑ t : Fin k, lhs (ix2 p t) * rhs (ix2 t c) := by
  rw [Ideal.matmul_constant_zero_apply, ← Equiv.sum_comp (contrEquiv1 D k hr hs).symm]
  refine Finset.sum_congr rfl fun t _ => ?_
  have hk := contrEquiv1_symm_val D k hr hs t
  have el : D.lhsIdx (ix2 p c) ((contrEquiv1 D k hr hs).symm t) = ix2 p t := funext fun ax => Fin.ext (by
    match ax with
    | ⟨0, _⟩ => exact hl0 _ _
    | ⟨1, _⟩ => exact (hl1 _ _).trans hk)
  have er : D.rhsIdx (ix2 p c) ((contrEquiv1 D k hr hs).symm t) = ix2 t c := funext fun ax => Fin.ext (by
    match ax with
    | ⟨0, _⟩ => exact (hr0 _ _).trans hk
    | ⟨1, _⟩ => exact hr1 _ _)
  rw [el, er]

end Cert.Sage.BlockRead

end
-- ==== Proof.LibAdjacency.lean ====
/-
  A matrix binarized entry by entry — one where the entry is positive, zero elsewhere — and multiplied with a second
  matrix, read at an entry written by its two coordinates, at any extents, on the extended reals.

  * a one-bit word widened to 32 bits and read as a signed integer is the bit itself;
  * a vector unit's spelling — compare against a splat zero, widen the bit, convert the signed word, narrow (the
    identity), multiply into a zero accumulator — is, at `(p, c)`, the sum over `t` of the binarized left entry
    `(p, t)` times the right entry `(t, c)`;
  * the host's spelling — compare against a broadcast zero, convert the unsigned bit, `dot_general` — is the same sum.
-/
import Idealize.ShloMosaic.Lib.ValueLayout
import Idealize.ShloMosaic.Lib.ValueIdx
import Idealize.ShloMosaic.Lib.Pipeline.Value
import Idealize.ShloMosaic.PureOps.Ideal.Laws
import proofs.«167493_j87660282511729_1_alg».proof.Proof.LibBlockRead

noncomputable section

open scoped BigOperators

namespace Cert.Adjacency

open Idealize.ShloMosaic Idealize.ShloMosaic.ValueIdx

/-- The binarized entry: the comparison's bit `a > 0`, as a number (0 or 1). -/
def bin (a : EReal) : EReal :=
  (((FloatOps.cmpf (F := Ideal) (φ := .f32) .ogt a (FloatOps.ofBits (F := Ideal) .f32 0x00000000#32)).toNat : ℝ) : EReal)

/-- A one-bit word widened by zeros to 32 bits and read signed is the bit: 0 or 1, never negative. -/
theorem signed_of_bit (b : BitVec 1) : (((b.setWidth 32).toInt : ℝ) : EReal) = ((b.toNat : ℝ) : EReal) := by
  have h : (b.setWidth 32).toInt = (b.toNat : ℤ) := by revert b; decide
  rw [h, Int.cast_natCast]

/-- The vector unit's binarize-and-multiply of a `[m, k]` block with a `[k, n]` block, at `(p, c)`. -/
theorem binMatmul_apply {m k n : ℕ} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x0 : FVec Ideal ⟨2, ![m, k]⟩ .f32) (x1 : FVec Ideal ⟨2, ![k, n]⟩ .f32)
    (h1 : 1 < 32) (hb : FTy.bf16.bits < FTy.f32.bits) (hc : (⟨2, ![k, n]⟩ : Shape).ShapeCasts ⟨2, ![k, n]⟩)
    (p : Fin m) (c : Fin n) :
    matmul D none
        (truncf .bf16 (sitofp .f32 (extui 32 (cmpf .ogt x0 (broadcast ⟨2, ![m, k]⟩ (Scalar.ofBits (F := Ideal) .f32 0x00000000#32))) h1)) hb)
        (truncf .bf16 (shapeCast ⟨2, ![k, n]⟩ x1 hc) hb) (constant ⟨2, ![m, n]⟩ .f32 0x00000000#32) (ix2 p c)
      = ∑ t : Fin k, bin (x0 (ix2 p t)) * x1 (ix2 t c) := by
  show FloatOps.matmul D none _ _ (constant ⟨2, ![m, n]⟩ .f32 0x00000000#32) (ix2 p c) = _
  rw [Cert.Sage.BlockRead.matmul_apply2 D none hr hs hl0 hl1 hr0 hr1]
  refine Finset.sum_congr rfl fun t _ => ?_
  rw [shapeCast_self]
  exact congrArg (· * x1 (ix2 t c)) (signed_of_bit _)

/-- The host's binarize-and-multiply of a `[m, k]` matrix with a `[k, n]` matrix, at `(p, c)`. -/
theorem binDot_apply {m k n : ℕ} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ .f32) (M : FVec Ideal ⟨2, ![k, n]⟩ .f32)
    (hb : (⟨0, ![]⟩ : Shape).BroadcastsInDim ⟨2, ![m, k]⟩ ![]) (p : Fin m) (c : Fin n) :
    Host.dotGeneral D none
        (uitofp .f32 (cmpf .ogt A (broadcastInDim ⟨2, ![m, k]⟩ ![] hb (constant (F := Ideal) ⟨0, ![]⟩ .f32 0x00000000#32)))) M (ix2 p c)
      = ∑ t : Fin k, bin (A (ix2 p t)) * M (ix2 t c) := by
  simp only [Host.dotGeneral]
  rw [Ideal.dotGeneral_apply, ← Equiv.sum_comp (contrEquiv1 D k hr hs).symm]
  refine Finset.sum_congr rfl fun t _ => ?_
  have hk := contrEquiv1_symm_val D k hr hs t
  have el : D.lhsIdx (ix2 p c) ((contrEquiv1 D k hr hs).symm t) = ix2 p t := funext fun ax => Fin.ext (by
    match ax with
    | ⟨0, _⟩ => exact hl0 _ _
    | ⟨1, _⟩ => exact (hl1 _ _).trans hk)
  have er : D.rhsIdx (ix2 p c) ((contrEquiv1 D k hr hs).symm t) = ix2 t c := funext fun ax => Fin.ext (by
    match ax with
    | ⟨0, _⟩ => exact (hr0 _ _).trans hk
    | ⟨1, _⟩ => exact hr1 _ _)
  rw [el, er]
  rfl

/-- The product of the binarized `[m, k]` matrix with a `[k, n]` matrix, as one function of the two arrays. -/
def binProd {m k n : ℕ} (A : (⟨2, ![m, k]⟩ : Shape).Idx → EReal) (M : (⟨2, ![k, n]⟩ : Shape).Idx → EReal) :
    (⟨2, ![m, n]⟩ : Shape).Idx → EReal :=
  fun i => ∑ t : Fin k, bin (A (ix2 ⟨(i 0).val, idx2_lt0 i⟩ t)) * M (ix2 t ⟨(i 1).val, idx2_lt1 i⟩)

/-- The host's spelling, as a whole array, is that product. -/
theorem binDot_eq {m k n : ℕ} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ .f32) (M : FVec Ideal ⟨2, ![k, n]⟩ .f32)
    (hb : (⟨0, ![]⟩ : Shape).BroadcastsInDim ⟨2, ![m, k]⟩ ![]) :
    Host.dotGeneral D none
        (uitofp .f32 (cmpf .ogt A (broadcastInDim ⟨2, ![m, k]⟩ ![] hb (constant (F := Ideal) ⟨0, ![]⟩ .f32 0x00000000#32)))) M
      = binProd A M := by
  funext i
  obtain ⟨p, c, rfl⟩ : ∃ (p : Fin m) (c : Fin n), i = ix2 p c := ⟨i 0, i 1, eq_ix2 i⟩
  exact binDot_apply D hr hs hl0 hl1 hr0 hr1 A M hb p c

end Cert.Adjacency

end
-- ==== Proof.RegionValue0.lean ====
/-
  Launch 0 of the row-block kernel, as a whole-array function of what the launch finds in its operands' arrays.
  The grid has 32 points; point `t` reads rows `256 t … 256 t + 255` of the [8192, 8192] matrix and the whole
  [8192, 64] right factor, and writes rows `256 t … 256 t + 255` of the [8192, 64] result: the binarized row block times
  the right factor. The 32 row blocks tile the result, so after the last point the result array is the binarized matrix
  times the right factor, entry by entry: the sum over `k` of `[A (r, k) > 0]` times `M (k, q)`.
-/
import proofs.«167493_j87660282511729_1_alg».proof.Proof.Gen.KernelIdeal.Frame
import proofs.«167493_j87660282511729_1_alg».proof.Proof.LibAdjacency
import Idealize.ShloMosaic.Lib.Pipeline.Value
import Idealize.ShloMosaic.Lib.ValueIdx

set_option maxRecDepth 16384

noncomputable section

open scoped BigOperators

namespace Cert.KernelIdeal.Hand.Region0

open Cert.KernelIdeal Cert.KernelIdeal.Gen
open Idealize.ShloMosaic Idealize.ShloMosaic.TcCoe Idealize.ShloMosaic.ValueIdx Idealize.SL.Sem
open Idealize.ShloMosaic.Pipeline (Dat)
open Cert.Adjacency (bin binProd)

variable (V : (c : Dev nD) → (b : Ref sig .tc) → Buf (Elt Ideal) ((c : Thread nD τ).loc b))

theorem zero_offsets : (![0, 0] : Fin 2 → Nat) = fun _ => 0 := funext fun a => by fin_cases a <;> rfl

/-! ## The block product's dimension numbers: rows of the left factor, columns of the right, one contracted axis -/

theorem lhs0 (i : S256x64.Idx) (q : dot_S256x8192_S8192x64_S256x64_1_0_0_1_n_n.contr.Idx) : (dot_S256x8192_S8192x64_S256x64_1_0_0_1_n_n.lhsIdx i q 0).val = (i 0).val := by
  unfold DotDims.lhsIdx
  rw [dif_neg (show ¬(0 : Fin S256x8192.rank) ∈ dot_S256x8192_S8192x64_S256x64_1_0_0_1_n_n.lhsBatch by decide), dif_pos (show (0 : Fin S256x8192.rank) ∈ dot_S256x8192_S8192x64_S256x64_1_0_0_1_n_n.lhsNonContracting by decide)]
  rfl
theorem lhs1 (i : S256x64.Idx) (q : dot_S256x8192_S8192x64_S256x64_1_0_0_1_n_n.contr.Idx) : (dot_S256x8192_S8192x64_S256x64_1_0_0_1_n_n.lhsIdx i q 1).val = (q ⟨0, by decide⟩).val :=
  dot_S256x8192_S8192x64_S256x64_1_0_0_1_n_n.lhsIdx_val_of_single rfl i q
theorem rhs0 (i : S256x64.Idx) (q : dot_S256x8192_S8192x64_S256x64_1_0_0_1_n_n.contr.Idx) : (dot_S256x8192_S8192x64_S256x64_1_0_0_1_n_n.rhsIdx i q 0).val = (q ⟨0, by decide⟩).val :=
  dot_S256x8192_S8192x64_S256x64_1_0_0_1_n_n.rhsIdx_val_of_single rfl i q
theorem rhs1 (i : S256x64.Idx) (q : dot_S256x8192_S8192x64_S256x64_1_0_0_1_n_n.contr.Idx) : (dot_S256x8192_S8192x64_S256x64_1_0_0_1_n_n.rhsIdx i q 1).val = (i 1).val := by
  unfold DotDims.rhsIdx
  rw [dif_neg (show ¬(1 : Fin S8192x64.rank) ∈ dot_S256x8192_S8192x64_S256x64_1_0_0_1_n_n.rhsBatch by decide), dif_pos (show (1 : Fin S8192x64.rank) ∈ dot_S256x8192_S8192x64_S256x64_1_0_0_1_n_n.rhsNonContracting by decide)]
  rfl

/-- What one point stores, entry by entry: the binarized row block times the right factor. -/
theorem stored_entry (x0 : Vec Ideal S256x8192 .f32) (x1 : Vec Ideal S8192x64 .f32) (p : Fin 256) (q : Fin 64) :
    k0_pay1 (F := Ideal) x0 x1 (ix2 p q) = ∑ k : Fin 8192, bin (x0 (ix2 p k)) * x1 (ix2 k q) := by
  unfold k0_pay1
  exact Cert.Adjacency.binMatmul_apply dot_S256x8192_S8192x64_S256x64_1_0_0_1_n_n rfl rfl lhs0 lhs1 rhs0 rhs1 x0 x1 _ _ _ p q

/-- Where the windows' blocks sit at point `t`: the matrix and the result move down one row block per point, the right
    factor's one block stays. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the binarized matrix times the right factor. -/
theorem writeback_is_block (c : Dev nD) (t : Fin cfg0.N) :
    (dat0 V c).flushed 2 t = ((cfg0.win 2).blk t).view.read (Elt Ideal) (binProd (m := 8192) (k := 8192) (n := 64) (V c main_arg0) (V c main_v33)) := by
  show (cfg0.win 2).cut (grid0.coords t) ((dat0 V c).after 2 t) = _
  rw [after0_2]
  unfold out0_2
  rw [View.canon_unit_zero zero_offsets]
  simp only [View.ld_unit_zero (S := S256x8192) zero_offsets, View.ld_unit_zero (S := S8192x64) zero_offsets]
  obtain ⟨e0, e1, e2, e3, e4, e5⟩ := block_positions t
  funext j
  show k0_pay1 (iblk0 V c 0 t) (iblk0 V c 1 t) j = binProd (m := 8192) (k := 8192) (n := 64) (V c main_arg0) (V c main_v33) (((cfg0.win 2).blk t).view.emb j)
  obtain ⟨p, q, rfl⟩ : ∃ (p : Fin 256) (q : Fin 64), j = ix2 p q := ⟨j 0, j 1, eq_ix2 j⟩
  refine (stored_entry (iblk0 V c 0 t) (iblk0 V c 1 t) p q).trans ?_
  unfold binProd
  refine Finset.sum_congr rfl fun k _ => ?_
  have hA : iblk0 V c 0 t (ix2 p k) = V c main_arg0 (ix2 ⟨((((cfg0.win 2).blk t).view.emb (ix2 p q)) 0).val, idx2_lt0 _⟩ k) := by
    unfold iblk0
    rw [View.read_apply]
    show V c main_arg0 _ = V c main_arg0 _
    congr 1
    funext a
    apply Fin.ext
    match a with
    | ⟨0, _⟩ => show win0_0.index t (0 : Fin 2) * 256 + 1 * p.val = win0_2.index t (0 : Fin 2) * 256 + 1 * p.val; omega
    | ⟨1, _⟩ => show win0_0.index t (1 : Fin 2) * 8192 + 1 * k.val = k.val; omega
  have hM : iblk0 V c 1 t (ix2 k q) = V c main_v33 (ix2 k ⟨((((cfg0.win 2).blk t).view.emb (ix2 p q)) 1).val, idx2_lt1 _⟩) := by
    unfold iblk0
    rw [View.read_apply]
    show V c main_v33 _ = V c main_v33 _
    congr 1
    funext a
    apply Fin.ext
    match a with
    | ⟨0, _⟩ => show win0_1.index t (0 : Fin 2) * 8192 + 1 * k.val = k.val; omega
    | ⟨1, _⟩ => show win0_1.index t (1 : Fin 2) * 64 + 1 * q.val = win0_2.index t (1 : Fin 2) * 64 + 1 * q.val; omega
  rw [hA, hM]

/-- An index of the result array lies in point `t`'s block iff each coordinate lies in the block's range. -/
theorem mem_row_block (t : Fin cfg0.N) (i : S8192x64.Idx) :
    i ∈ ((cfg0.win 2).blk t).view.set ↔ ∀ a : Fin 2, win0_2.index t a * S256x64.size a ≤ (i a).val ∧ (i a).val < win0_2.index t a * S256x64.size a + S256x64.size a := by
  show i ∈ ((View.whole main_v34).slice (win0_2.rect t)).set ↔ _
  rw [View.set_slice_whole, Rect.mem_set_unit]
  exact Iff.rfl

/-- Every entry of the result is written by some point: row `r` by point `r / 256`. -/
theorem row_blocks_cover (i : S8192x64.Idx) : ∃ t : Fin cfg0.N, (cfg0.win 2).flush t = true ∧ i ∈ ((cfg0.win 2).blk t).view.set := by
  have h0 : (i 0).val < 8192 := idx2_lt0 i
  have h1 : (i 1).val < 64 := idx2_lt1 i
  have hN : cfg0.N = 32 := N_0
  refine ⟨⟨(i 0).val / 256, by rw [hN]; omega⟩, flush0_2 _, ?_⟩
  rw [mem_row_block]
  obtain ⟨e0, e1, e2, e3, e4, e5⟩ := block_positions ⟨(i 0).val / 256, by rw [hN]; omega⟩
  intro a
  match a with
  | ⟨0, _⟩ =>
    show win0_2.index _ (0 : Fin 2) * 256 ≤ (i 0).val ∧ (i 0).val < win0_2.index _ (0 : Fin 2) * 256 + 256
    rw [e4]; show (i 0).val / 256 * 256 ≤ (i 0).val ∧ (i 0).val < (i 0).val / 256 * 256 + 256; omega
  | ⟨1, _⟩ =>
    show win0_2.index _ (1 : Fin 2) * 64 ≤ (i 1).val ∧ (i 1).val < win0_2.index _ (1 : Fin 2) * 64 + 64
    rw [e5]; omega

/-- After the last point the result array is the binarized matrix times the right factor. -/
theorem result_array (c : Dev nD) :
    (dat0 V c).arrAt 2 cfg0.N = binProd (m := 8192) (k := 8192) (n := 64) (V c main_arg0) (V c main_v33) :=
  (dat0 V c).arrAt_eq_of_cover 2 _ (fun t _ => writeback_is_block V c t) row_blocks_cover

end Cert.KernelIdeal.Hand.Region0

end
-- ==== Proof.RegionValue1.lean ====
/-
  Launch 1 of the row-block kernel, as a whole-array function of what the launch finds in its operands' arrays.
  The grid has 32 points; point `t` reads rows `256 t … 256 t + 255` of the [8192, 8192] matrix and the whole
  [8192, 16] right factor, and writes rows `256 t … 256 t + 255` of the [8192, 16] result: the binarized row block times
  the right factor. The 32 row blocks tile the result, so after the last point the result array is the binarized matrix
  times the right factor, entry by entry: the sum over `k` of `[A (r, k) > 0]` times `M (k, q)`.
-/
import proofs.«167493_j87660282511729_1_alg».proof.Proof.Gen.KernelIdeal.Frame
import proofs.«167493_j87660282511729_1_alg».proof.Proof.LibAdjacency
import Idealize.ShloMosaic.Lib.Pipeline.Value
import Idealize.ShloMosaic.Lib.ValueIdx

set_option maxRecDepth 16384

noncomputable section

open scoped BigOperators

namespace Cert.KernelIdeal.Hand.Region1

open Cert.KernelIdeal Cert.KernelIdeal.Gen
open Idealize.ShloMosaic Idealize.ShloMosaic.TcCoe Idealize.ShloMosaic.ValueIdx Idealize.SL.Sem
open Idealize.ShloMosaic.Pipeline (Dat)
open Cert.Adjacency (bin binProd)

variable (V : (c : Dev nD) → (b : Ref sig .tc) → Buf (Elt Ideal) ((c : Thread nD τ).loc b))

theorem zero_offsets : (![0, 0] : Fin 2 → Nat) = fun _ => 0 := funext fun a => by fin_cases a <;> rfl

/-! ## The block product's dimension numbers: rows of the left factor, columns of the right, one contracted axis -/

theorem lhs0 (i : S256x16.Idx) (q : dot_S256x8192_S8192x16_S256x16_1_0_0_1_n_n.contr.Idx) : (dot_S256x8192_S8192x16_S256x16_1_0_0_1_n_n.lhsIdx i q 0).val = (i 0).val := by
  unfold DotDims.lhsIdx
  rw [dif_neg (show ¬(0 : Fin S256x8192.rank) ∈ dot_S256x8192_S8192x16_S256x16_1_0_0_1_n_n.lhsBatch by decide), dif_pos (show (0 : Fin S256x8192.rank) ∈ dot_S256x8192_S8192x16_S256x16_1_0_0_1_n_n.lhsNonContracting by decide)]
  rfl
theorem lhs1 (i : S256x16.Idx) (q : dot_S256x8192_S8192x16_S256x16_1_0_0_1_n_n.contr.Idx) : (dot_S256x8192_S8192x16_S256x16_1_0_0_1_n_n.lhsIdx i q 1).val = (q ⟨0, by decide⟩).val :=
  dot_S256x8192_S8192x16_S256x16_1_0_0_1_n_n.lhsIdx_val_of_single rfl i q
theorem rhs0 (i : S256x16.Idx) (q : dot_S256x8192_S8192x16_S256x16_1_0_0_1_n_n.contr.Idx) : (dot_S256x8192_S8192x16_S256x16_1_0_0_1_n_n.rhsIdx i q 0).val = (q ⟨0, by decide⟩).val :=
  dot_S256x8192_S8192x16_S256x16_1_0_0_1_n_n.rhsIdx_val_of_single rfl i q
theorem rhs1 (i : S256x16.Idx) (q : dot_S256x8192_S8192x16_S256x16_1_0_0_1_n_n.contr.Idx) : (dot_S256x8192_S8192x16_S256x16_1_0_0_1_n_n.rhsIdx i q 1).val = (i 1).val := by
  unfold DotDims.rhsIdx
  rw [dif_neg (show ¬(1 : Fin S8192x16.rank) ∈ dot_S256x8192_S8192x16_S256x16_1_0_0_1_n_n.rhsBatch by decide), dif_pos (show (1 : Fin S8192x16.rank) ∈ dot_S256x8192_S8192x16_S256x16_1_0_0_1_n_n.rhsNonContracting by decide)]
  rfl

/-- What one point stores, entry by entry: the binarized row block times the right factor. -/
theorem stored_entry (x0 : Vec Ideal S256x8192 .f32) (x1 : Vec Ideal S8192x16 .f32) (p : Fin 256) (q : Fin 16) :
    k1_pay1 (F := Ideal) x0 x1 (ix2 p q) = ∑ k : Fin 8192, bin (x0 (ix2 p k)) * x1 (ix2 k q) := by
  unfold k1_pay1
  exact Cert.Adjacency.binMatmul_apply dot_S256x8192_S8192x16_S256x16_1_0_0_1_n_n rfl rfl lhs0 lhs1 rhs0 rhs1 x0 x1 _ _ _ p q

/-- Where the windows' blocks sit at point `t`: the matrix and the result move down one row block per point, the right
    factor's one block stays. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the binarized matrix times the right factor. -/
theorem writeback_is_block (c : Dev nD) (t : Fin cfg1.N) :
    (dat1 V c).flushed 2 t = ((cfg1.win 2).blk t).view.read (Elt Ideal) (binProd (m := 8192) (k := 8192) (n := 16) (V c main_arg0) (V c main_v46)) := by
  show (cfg1.win 2).cut (grid1.coords t) ((dat1 V c).after 2 t) = _
  rw [after1_2]
  unfold out1_2
  rw [View.canon_unit_zero zero_offsets]
  simp only [View.ld_unit_zero (S := S256x8192) zero_offsets, View.ld_unit_zero (S := S8192x16) zero_offsets]
  obtain ⟨e0, e1, e2, e3, e4, e5⟩ := block_positions t
  funext j
  show k1_pay1 (iblk1 V c 0 t) (iblk1 V c 1 t) j = binProd (m := 8192) (k := 8192) (n := 16) (V c main_arg0) (V c main_v46) (((cfg1.win 2).blk t).view.emb j)
  obtain ⟨p, q, rfl⟩ : ∃ (p : Fin 256) (q : Fin 16), j = ix2 p q := ⟨j 0, j 1, eq_ix2 j⟩
  refine (stored_entry (iblk1 V c 0 t) (iblk1 V c 1 t) p q).trans ?_
  unfold binProd
  refine Finset.sum_congr rfl fun k _ => ?_
  have hA : iblk1 V c 0 t (ix2 p k) = V c main_arg0 (ix2 ⟨((((cfg1.win 2).blk t).view.emb (ix2 p q)) 0).val, idx2_lt0 _⟩ k) := by
    unfold iblk1
    rw [View.read_apply]
    show V c main_arg0 _ = V c main_arg0 _
    congr 1
    funext a
    apply Fin.ext
    match a with
    | ⟨0, _⟩ => show win1_0.index t (0 : Fin 2) * 256 + 1 * p.val = win1_2.index t (0 : Fin 2) * 256 + 1 * p.val; omega
    | ⟨1, _⟩ => show win1_0.index t (1 : Fin 2) * 8192 + 1 * k.val = k.val; omega
  have hM : iblk1 V c 1 t (ix2 k q) = V c main_v46 (ix2 k ⟨((((cfg1.win 2).blk t).view.emb (ix2 p q)) 1).val, idx2_lt1 _⟩) := by
    unfold iblk1
    rw [View.read_apply]
    show V c main_v46 _ = V c main_v46 _
    congr 1
    funext a
    apply Fin.ext
    match a with
    | ⟨0, _⟩ => show win1_1.index t (0 : Fin 2) * 8192 + 1 * k.val = k.val; omega
    | ⟨1, _⟩ => show win1_1.index t (1 : Fin 2) * 16 + 1 * q.val = win1_2.index t (1 : Fin 2) * 16 + 1 * q.val; omega
  rw [hA, hM]

/-- An index of the result array lies in point `t`'s block iff each coordinate lies in the block's range. -/
theorem mem_row_block (t : Fin cfg1.N) (i : S8192x16.Idx) :
    i ∈ ((cfg1.win 2).blk t).view.set ↔ ∀ a : Fin 2, win1_2.index t a * S256x16.size a ≤ (i a).val ∧ (i a).val < win1_2.index t a * S256x16.size a + S256x16.size a := by
  show i ∈ ((View.whole main_v47).slice (win1_2.rect t)).set ↔ _
  rw [View.set_slice_whole, Rect.mem_set_unit]
  exact Iff.rfl

/-- Every entry of the result is written by some point: row `r` by point `r / 256`. -/
theorem row_blocks_cover (i : S8192x16.Idx) : ∃ t : Fin cfg1.N, (cfg1.win 2).flush t = true ∧ i ∈ ((cfg1.win 2).blk t).view.set := by
  have h0 : (i 0).val < 8192 := idx2_lt0 i
  have h1 : (i 1).val < 16 := idx2_lt1 i
  have hN : cfg1.N = 32 := N_1
  refine ⟨⟨(i 0).val / 256, by rw [hN]; omega⟩, flush1_2 _, ?_⟩
  rw [mem_row_block]
  obtain ⟨e0, e1, e2, e3, e4, e5⟩ := block_positions ⟨(i 0).val / 256, by rw [hN]; omega⟩
  intro a
  match a with
  | ⟨0, _⟩ =>
    show win1_2.index _ (0 : Fin 2) * 256 ≤ (i 0).val ∧ (i 0).val < win1_2.index _ (0 : Fin 2) * 256 + 256
    rw [e4]; show (i 0).val / 256 * 256 ≤ (i 0).val ∧ (i 0).val < (i 0).val / 256 * 256 + 256; omega
  | ⟨1, _⟩ =>
    show win1_2.index _ (1 : Fin 2) * 16 ≤ (i 1).val ∧ (i 1).val < win1_2.index _ (1 : Fin 2) * 16 + 16
    rw [e5]; omega

/-- After the last point the result array is the binarized matrix times the right factor. -/
theorem result_array (c : Dev nD) :
    (dat1 V c).arrAt 2 cfg1.N = binProd (m := 8192) (k := 8192) (n := 16) (V c main_arg0) (V c main_v46) :=
  (dat1 V c).arrAt_eq_of_cover 2 _ (fun t _ => writeback_is_block V c t) row_blocks_cover

end Cert.KernelIdeal.Hand.Region1

end
-- ==== Proof.KernelRun.lean ====
/-
  The kernel program's run with its result buffer named. The program is two launches of one row-block kernel among
  stretches of host operations. Every weakly fair execution terminates, and on each core the result buffer ends at the
  contents the fold through the program's segments gives it — the second launch's write-backs, folded —, while the four
  argument arrays end as launched.
-/
import proofs.«167493_j87660282511729_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the last thread state holds every unscoped buffer at the last boundary's contents; read against the final
    memory, the result buffer is there at those contents and each argument at its launch contents. -/
theorem run_named : θ_run defs (onTc (τ := τ) (main (F := F))) ⟨m, fun _ => 0, ρ⟩ (fun r => ∀ c : Dev nD,
      r.2.mem ((c.tc : Thread nD τ).loc main_v47) = W28 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W28 m ρ c b)
    (hfin := fun c s' => by
      iintro ⟨⟨Hh, -⟩, HSI⟩
      unfold StableHlo.held
      imodintro
      iapply (pointsTo_read_all (Pipeline.ucRefs τ sig) (fun b => (((c : Thread nD τ)).1, b)) (W28 m ρ c) s')
      isplitl [Hh] <;> iassumption)
    (hQ := fun s h c =>
      ⟨h c _ (mem_uc main_v47 (by decide)),
       (h c _ (mem_uc main_arg0 (by decide))).trans (W28_main_arg0 m ρ c),
       (h c _ (mem_uc main_arg1 (by decide))).trans (W28_main_arg1 m ρ c),
       (h c _ (mem_uc main_arg2 (by decide))).trans (W28_main_arg2 m ρ c),
       (h c _ (mem_uc main_arg3 (by decide))).trans (W28_main_arg3 m ρ c)⟩)

end Cert.KernelIdeal.Hand

end
-- ==== Proof.KernelValue.lean ====
/-
  What the kernel program's result buffer holds after the run, as one function of the four argument arrays.
  Walking the program's segments: the host operations before the first launch quantize the features and the two
  weight matrices and multiply the first pair; the first launch multiplies the binarized adjacency matrix with that
  product; the host operations between the launches quantize the outcome and multiply it with the second weight
  matrix; the second launch multiplies the binarized adjacency matrix with that. Each host stretch is the same chain
  of operations the reference applies, and each launch's result array is the binarized matrix times its right
  factor, which is what the host's `dot_general` of the converted comparison computes on the extended reals.
  So the result is the reference's last stage at the same arguments.
-/
import proofs.«167493_j87660282511729_1_alg».proof.Proof.Gen.KernelIdeal.Frame
import proofs.«167493_j87660282511729_1_alg».proof.Proof.Gen.ReferenceIdeal.Read
import proofs.«167493_j87660282511729_1_alg».proof.Proof.RegionValue0
import proofs.«167493_j87660282511729_1_alg».proof.Proof.RegionValue1
import proofs.«167493_j87660282511729_1_alg».proof.Proof.KernelRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read (val_main_v35 val_main_v36 val_main_v37 val_main_v49 val_main_v50
  lhs_main_v37_0 lhs_main_v37_1 rhs_main_v37_0 rhs_main_v37_1 lhs_main_v50_0 lhs_main_v50_1 rhs_main_v50_0 rhs_main_v50_1)
open Cert.Adjacency (binProd binDot_eq)

variable (m : (ℓ : Loc nD τ sig) → Buf (Elt Ideal) ℓ) (ρ : Dev nD → PrngReg)

/-! ## Entering the first launch -/

/-- No host operation writes the adjacency matrix. -/
theorem entry0_adj (c : Dev nD) : W19 m ρ c (Proc.devRef .tc main_arg0) = m ((c : Thread nD τ).loc main_arg0) := by
  after_results_simp <;> rfl

set_option maxHeartbeats 4000000 in
/-- The first launch's right factor: the quantized features times the quantized first weight matrix. -/
theorem entry0_rhs (c : Dev nD) : W19 m ρ c (Proc.devRef .tc main_v33)
    = val_main_v36 (F := Ideal) (m ((c : Thread nD τ).loc main_arg1)) (m ((c : Thread nD τ).loc main_arg2)) := by
  after_results_simp <;> rfl

set_option maxHeartbeats 4000000 in
/-- The quantized second weight matrix, computed before the first launch. -/
theorem entry0_w2 (c : Dev nD) : W19 m ρ c (Proc.devRef .tc main_v32)
    = val_main_v35 (F := Ideal) (m ((c : Thread nD τ).loc main_arg3)) := by
  after_results_simp <;> rfl

/-! ## Leaving the first launch -/

/-- The first launch's result array: the binarized adjacency matrix times its right factor, the reference's stage. -/
theorem exit0_out (c : Dev nD) : W20 m ρ c (Proc.devRef .tc main_v34)
    = val_main_v37 (F := Ideal) (m ((c : Thread nD τ).loc main_arg0)) (m ((c : Thread nD τ).loc main_arg1)) (m ((c : Thread nD τ).loc main_arg2)) := by
  refine (W20_arr m ρ c 2).trans ((Region0.result_array (V19 m ρ) c).trans ?_)
  show binProd (m := 8192) (k := 8192) (n := 64) (W19 m ρ c (Proc.devRef .tc main_arg0)) (W19 m ρ c (Proc.devRef .tc main_v33)) = _
  rw [entry0_adj, entry0_rhs]
  exact (binDot_eq Cert.ReferenceIdeal.dot_S8192x8192_S8192x64_S8192x64_1_0_0_1_n_n rfl rfl
    lhs_main_v37_0 lhs_main_v37_1 rhs_main_v37_0 rhs_main_v37_1 _ _ Cert.ReferenceIdeal.Facts₀.bcast_S_S8192x8192).symm

/-- The launch reads the adjacency matrix and leaves it. -/
theorem exit0_adj (c : Dev nD) : W20 m ρ c (Proc.devRef .tc main_arg0) = m ((c : Thread nD τ).loc main_arg0) :=
  (W20_arr m ρ c 0).trans (((dat0 (V19 m ρ) c).arrAt_in 0 rfl _).trans ((A_eq0 (V19 m ρ) c 0).trans (entry0_adj m ρ c)))

/-- The launch does not touch the quantized second weight matrix. -/
theorem exit0_w2 (c : Dev nD) : W20 m ρ c (Proc.devRef .tc main_v32)
    = val_main_v35 (F := Ideal) (m ((c : Thread nD τ).loc main_arg3)) :=
  (W20_of_ne m ρ c main_v32 (by decide)).trans (entry0_w2 m ρ c)

/-! ## Entering the second launch -/

theorem entry1_adj (c : Dev nD) : W27 m ρ c (Proc.devRef .tc main_arg0) = m ((c : Thread nD τ).loc main_arg0) := by
  after_results_simp
  exact exit0_adj m ρ c

set_option maxHeartbeats 4000000 in
/-- The second launch's right factor: the first launch's outcome quantized, times the quantized second weight matrix. -/
theorem entry1_rhs (c : Dev nD) : W27 m ρ c (Proc.devRef .tc main_v46)
    = val_main_v49 (F := Ideal) (m ((c : Thread nD τ).loc main_arg0)) (m ((c : Thread nD τ).loc main_arg1)) (m ((c : Thread nD τ).loc main_arg2)) (m ((c : Thread nD τ).loc main_arg3)) := by
  after_results_simp
  rw [exit0_out, exit0_w2]
  rfl

/-! ## The result -/

/-- The second launch's result array is the reference's last stage at the same arguments. -/
theorem exit1_out (c : Dev nD) : W28 m ρ c (Proc.devRef .tc main_v47)
    = val_main_v50 (F := Ideal) (m ((c : Thread nD τ).loc main_arg0)) (m ((c : Thread nD τ).loc main_arg1)) (m ((c : Thread nD τ).loc main_arg2)) (m ((c : Thread nD τ).loc main_arg3)) := by
  refine (W28_arr m ρ c 2).trans ((Region1.result_array (V27 m ρ) c).trans ?_)
  show binProd (m := 8192) (k := 8192) (n := 16) (W27 m ρ c (Proc.devRef .tc main_arg0)) (W27 m ρ c (Proc.devRef .tc main_v46)) = _
  rw [entry1_adj, entry1_rhs]
  exact (binDot_eq Cert.ReferenceIdeal.dot_S8192x8192_S8192x16_S8192x16_1_0_0_1_n_n rfl rfl
    lhs_main_v50_0 lhs_main_v50_1 rhs_main_v50_0 rhs_main_v50_1 _ _ Cert.ReferenceIdeal.Facts₀.bcast_S_S8192x8192).symm

/-- The kernel program's run, read: the result buffer ends at the reference's last stage of the argument arrays, the
    arguments unchanged. -/
theorem run : θ_run defs (onTc (τ := τ) (main (F := Ideal))) ⟨m, fun _ => 0, ρ⟩ (fun r => ∀ c : Dev nD,
      r.2.mem ((c.tc : Thread nD τ).loc main_v47) = val_main_v50 (F := Ideal) (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (exit1_out m ρ c), (h c).2⟩) (run_named m ρ)

end Cert.KernelIdeal.Hand

end
-- ==== Proof.lean ====
/-
  The certificate of a two-layer graph convolution with one-bit adjacency and fake-quantized features and weights:
  `out = [A > 0] · (fq3([A > 0] · (fq3(X) · fq2(W_in))) · fq2(W_out))`, where `fq_b` scales by the largest magnitude over
  `2^(b-1) - 1`, rounds to even, clips and scales back.

  The kernel program computes the quantizations and the two small products on the host and each product with the
  binarized adjacency matrix by a row-block kernel (32 blocks of 256 rows, the comparison, a one-bit-to-float
  conversion, a matrix product into a zero accumulator); the reference does everything on the host. On the extended
  reals a change of float format is the identity and both matrix products are the plain sum over the contracted axis,
  and a one-bit word widened to 32 bits and converted as a signed integer is the bit converted unsigned; so each
  launch's result array is the reference's `dot_general` of the converted comparison, entry by entry, and the host
  operations around the launches are the reference's own, in the same order. The two results are one function of
  the arguments; no entry needs to be finite for that.

  The three frames are the programs' runs with the results dropped; the idealization rewrote nothing.
-/
import proofs.«167493_j87660282511729_1_alg».proof.Defs
import proofs.«167493_j87660282511729_1_alg».proof.Proof.Gen.Kernel
import proofs.«167493_j87660282511729_1_alg».proof.Proof.Gen.Kernel.Skeleton
import proofs.«167493_j87660282511729_1_alg».proof.Proof.Gen.Kernel.Launch
import proofs.«167493_j87660282511729_1_alg».proof.Proof.Gen.Kernel.Points
import proofs.«167493_j87660282511729_1_alg».proof.Proof.Gen.Kernel.Frame
import proofs.«167493_j87660282511729_1_alg».proof.Proof.Gen.KernelIdeal
import proofs.«167493_j87660282511729_1_alg».proof.Proof.Gen.KernelIdeal.Skeleton
import proofs.«167493_j87660282511729_1_alg».proof.Proof.Gen.KernelIdeal.Launch
import proofs.«167493_j87660282511729_1_alg».proof.Proof.Gen.KernelIdeal.Points
import proofs.«167493_j87660282511729_1_alg».proof.Proof.Gen.KernelIdeal.Frame
import proofs.«167493_j87660282511729_1_alg».proof.Proof.Gen.ReferenceIdeal
import proofs.«167493_j87660282511729_1_alg».proof.Proof.Gen.Pre_finite_inputs
import proofs.«167493_j87660282511729_1_alg».proof.Proof.Gen.ReferenceIdeal.Run
import proofs.«167493_j87660282511729_1_alg».proof.Proof.Gen.ReferenceIdeal.Read
import proofs.«167493_j87660282511729_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- Both programs end with the result buffer at the reference's last stage of the (agreeing) argument arrays. -/
theorem algebraic : Cert.algebraic_KernelIdeal_ReferenceIdeal := by
  intro m ρ m' ρ' _ hagree
  refine ⟨fun c => Cert.ReferenceIdeal.Read.val_main_v50 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
